-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S2048x16 : Shape := ⟨2, ![2048, 16]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048x16 32) (main_v13 : IVec S_ 1) (main_v15 : IVec S2048x16 1) (main_c_5 : IVec S_ 32) : IVec S_ 1 :=
  let main_v16 : IVec S2048x16 32 := broadcastInDim S2048x16 ![] bcast_S_S2048x16 main_c_5
  let main_v17 : IVec S2048x16 1 := cmpi .slt main_arg1 main_v16
  let main_v18 : IVec S2048x16 1 := andi main_v15 main_v17
  let main_c_6 : IVec S_ 1 := constantI S_ 1 1#1
  let main_v19 : IVec S_ 1 := (fun x v => Host.reduce IntOp.andi x v reducesTo_S2048x16_S_d0_1 h_S_) main_v18 main_c_6
  let main_v20 : IVec S_ 1 := andi main_v13 main_v19
  main_v20

def fn {F : FTy → Type} [FloatOps F] (main_arg0 : FVec F S1x2048x2048 .f32) (main_arg1 : IVec S2048x16 32) (main_arg2 : FVec F S2048x16 .f32) (main_arg3 : FVec F S2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x16 .f32 := Host.absf main_arg2
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S2048x16 32 := broadcastInDim S2048x16 ![] bcast_S_S2048x16 main_c_4
  let main_v15 : IVec S2048x16 1 := cmpi .sge main_arg1 main_v14
  let main_c_5 : IVec S_ 32 := constantI S_ 32 2048#32
  fn_part1 (F := F) main_arg1 main_v13 main_v15 main_c_5
-- ==== Kernel.lean ====
abbrev S1x2048x2048 : Shape := ⟨3, ![1, 2048, 2048]⟩
abbrev S2048x16 : Shape := ⟨2, ![2048, 16]⟩
abbrev S2048 : Shape := ⟨1, ![2048]⟩
abbrev S2048x2048 : Shape := ⟨2, ![2048, 2048]⟩
abbrev S16x2048 : Shape := ⟨2, ![16, 2048]⟩
abbrev S1x2048 : Shape := ⟨2, ![1, 2048]⟩
abbrev S16x512 : Shape := ⟨2, ![16, 512]⟩
abbrev S1x512 : Shape := ⟨2, ![1, 512]⟩
abbrev S2048x512 : Shape := ⟨2, ![2048, 512]⟩

abbrev nBuf : Space → Nat
  | .hbm => 10
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S2048x16, .i32⟩
  | .hbm, ⟨2, _⟩ => ⟨S2048x16, .f32⟩
  | .hbm, ⟨3, _⟩ => ⟨S2048, .f32⟩
  | .hbm, ⟨4, _⟩ => ⟨S2048x2048, .f32⟩
  | .hbm, ⟨5, _⟩ => ⟨S16x2048, .i32⟩
  | .hbm, ⟨6, _⟩ => ⟨S16x2048, .f32⟩
  | .hbm, ⟨7, _⟩ => ⟨S1x2048, .f32⟩
  | .hbm, ⟨8, _⟩ => ⟨S2048x2048, .f32⟩
  | .hbm, ⟨9, _⟩ => ⟨S1x2048x2048, .f32⟩
  | .local _ .vmem, ⟨0, _⟩ => ⟨S16x512, .i32⟩
  | .local _ .vmem, ⟨1, _⟩ => ⟨S16x512, .i32⟩
  | .local _ .vmem, ⟨2, _⟩ => ⟨S16x512, .f32⟩
  | .local _ .vmem, ⟨3, _⟩ => ⟨S16x512, .f32⟩
  | .local _ .vmem, ⟨4, _⟩ => ⟨S1x512, .f32⟩
  | .local _ .vmem, ⟨5, _⟩ => ⟨S1x512, .f32⟩
  | .local _ .vmem, ⟨6, _⟩ => ⟨S2048x2048, .f32⟩
  | .local _ .vmem, ⟨7, _⟩ => ⟨S2048x512, .f32⟩
  | .local _ .vmem, ⟨8, _⟩ => ⟨S2048x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x2048x2048_S2048x2048 : S1x2048x2048.ShapeCasts S2048x2048
  transposes_S2048x16_S16x2048_1_0 : S2048x16.Transposes [1, 0] S16x2048
  shapeCasts_S2048_S1x2048 : S2048.ShapeCasts S1x2048
  inb_S16x512_S16x512_0_0 : ∀ a, (![0, 0] : Fin 2 → Nat) a + S16x512.size a ≤ S16x512.size a
  h_S16x512 : 0 < S16x512.numel
  shapeCasts_S16x512_S16x512 : S16x512.ShapeCasts S16x512
  iota_S2048x512_d0_w32 : S2048x512.Iotas .tc 32 [0]
  slices_S16x512_o0_0_S1x512 : S16x512.Slices ![0, 0] S1x512
  broadcasts_S1x512_S2048x512 : S1x512.Broadcasts S2048x512
  shapeCasts_S1x512_S1x512 : S1x512.ShapeCasts S1x512
  slices_S16x512_o1_0_S1x512 : S16x512.Slices ![1, 0] S1x512
  slices_S16x512_o2_0_S1x512 : S16x512.Slices ![2, 0] S1x512
  slices_S16x512_o3_0_S1x512 : S16x512.Slices ![3, 0] S1x512
  slices_S16x512_o4_0_S1x512 : S16x512.Slices ![4, 0] S1x512
  slices_S16x512_o5_0_S1x512 : S16x512.Slices ![5, 0] S1x512
  slices_S16x512_o6_0_S1x512 : S16x512.Slices ![6, 0] S1x512
  slices_S16x512_o7_0_S1x512 : S16x512.Slices ![7, 0] S1x512
  slices_S16x512_o8_0_S1x512 : S16x512.Slices ![8, 0] S1x512
  slices_S16x512_o9_0_S1x512 : S16x512.Slices ![9, 0] S1x512
  slices_S16x512_o10_0_S1x512 : S16x512.Slices ![10, 0] S1x512
  slices_S16x512_o11_0_S1x512 : S16x512.Slices ![11, 0] S1x512
  slices_S16x512_o12_0_S1x512 : S16x512.Slices ![12, 0] S1x512
  slices_S16x512_o13_0_S1x512 : S16x512.Slices ![13, 0] S1x512
  slices_S16x512_o14_0_S1x512 : S16x512.Slices ![14, 0] S1x512
  slices_S16x512_o15_0_S1x512 : S16x512.Slices ![15, 0] S1x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  inb_S2048x512_S2048x512_0_0 : ∀ a, (![0, 0] : Fin 2 → Nat) a + S2048x512.size a ≤ S2048x512.size a
  h_S2048x512 : 0 < S2048x512.numel
  shapeCasts_S2048x2048_S1x2048x2048 : S2048x2048.ShapeCasts S1x2048x2048
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x2048.size a
  hwx0_0 : ∀ i : grid0.Coords, EltTy.bits .i32 = 32 ∨ (Rect.block (s := S16x2048) S16x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x2048.size a
  hwx0_1 : ∀ i : grid0.Coords, EltTy.bits .f32 = 32 ∨ (Rect.block (s := S16x2048) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .f32 = 32 ∨ (Rect.block (s := S2048x2048) S2048x512.size (cc0_transform_4 i) (hinb0_4 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v1) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S2048x16 : Shape := ⟨2, ![2048, 16]⟩
abbrev S2048 : Shape := ⟨1, ![2048]⟩
abbrev S_ : Shape := ⟨0, ![]⟩
abbrev S2048x16x1 : Shape := ⟨3, ![2048, 16, 1]⟩
abbrev S1 : Shape := ⟨1, ![1]⟩
abbrev S1x1x1 : Shape := ⟨3, ![1, 1, 1]⟩
abbrev S1x2048x2048x16 : Shape := ⟨4, ![1, 2048, 2048, 16]⟩
abbrev S1x1x2048x16 : Shape := ⟨4, ![1, 1, 2048, 16]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x16, .i32⟩
  | .hbm, ⟨2, _⟩ => ⟨S2048x16, .f32⟩
  | .hbm, ⟨3, _⟩ => ⟨S2048, .f32⟩
  | .hbm, ⟨4, _⟩ => ⟨S_, .i32⟩
  | .hbm, ⟨5, _⟩ => ⟨S2048x16, .i32⟩
  | .hbm, ⟨6, _⟩ => ⟨S2048x16, .i1⟩
  | .hbm, ⟨7, _⟩ => ⟨S_, .i32⟩
  | .hbm, ⟨8, _⟩ => ⟨S2048x16, .i32⟩
  | .hbm, ⟨9, _⟩ => ⟨S2048x16, .i32⟩
  | .hbm, ⟨10, _⟩ => ⟨S2048x16, .i32⟩
  | .hbm, ⟨11, _⟩ => ⟨S2048x16x1, .i32⟩
  | .hbm, ⟨12, _⟩ => ⟨S1, .i32⟩
  | .hbm, ⟨13, _⟩ => ⟨S_, .i32⟩
  | .hbm, ⟨14, _⟩ => ⟨S2048x16x1, .i32⟩
  | .hbm, ⟨15, _⟩ => ⟨S2048x16x1, .i1⟩
  | .hbm, ⟨16, _⟩ => ⟨S1x1x1, .i32⟩
  | .hbm, ⟨17, _⟩ => ⟨S2048x16x1, .i32⟩
  | .hbm, ⟨18, _⟩ => ⟨S2048x16x1, .i1⟩
  | .hbm, ⟨19, _⟩ => ⟨S2048x16x1, .i1⟩
  | .hbm, ⟨20, _⟩ => ⟨S_, .i1⟩
  | .hbm, ⟨21, _⟩ => ⟨S2048x16, .i1⟩
  | .hbm, ⟨22, _⟩ => ⟨S1x2048x2048x16, .f32⟩
  | .hbm, ⟨23, _⟩ => ⟨S1x2048x2048x16, .i1⟩
  | .hbm, ⟨24, _⟩ => ⟨S_, .f32⟩
  | .hbm, ⟨25, _⟩ => ⟨S1x2048x2048x16, .f32⟩
  | .hbm, ⟨26, _⟩ => ⟨S1x2048x2048x16, .f32⟩
  | .hbm, ⟨27, _⟩ => ⟨S1x1x2048x16, .f32⟩
  | .hbm, ⟨28, _⟩ => ⟨S1x2048x2048x16, .f32⟩
  | .hbm, ⟨29, _⟩ => ⟨S1x2048x2048x16, .f32⟩
  | .hbm, ⟨30, _⟩ => ⟨S_, .f32⟩
  | .hbm, ⟨31, _⟩ => ⟨S1x2048x2048, .f32⟩
  | .hbm, ⟨32, _⟩ => ⟨S1x1x2048, .f32⟩
  | .hbm, ⟨33, _⟩ => ⟨S1x2048x2048, .f32⟩
  | .hbm, ⟨34, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  bcast_S1_S1x1x1_2 : S1.BroadcastsInDim S1x1x1 (![2] : Fin 1 → Fin S1x1x1.rank)
  bcast_S1x1x1_S2048x16x1_0_1_2 : S1x1x1.BroadcastsInDim S2048x16x1 (![0, 1, 2] : Fin 3 → Fin S2048x16x1.rank)
  reducesTo_S2048x16x1_S2048x16_d2 : S2048x16x1.ReducesTo [2] S2048x16
  h_S_ : 0 < S_.numel
  bcast_S2048x16_S1x2048x2048x16_2_3 : S2048x16.BroadcastsInDim S1x2048x2048x16 (![2, 3] : Fin 2 → Fin S1x2048x2048x16.rank)
  bcast_S_S1x2048x2048x16 : S_.BroadcastsInDim S1x2048x2048x16 (![] : Fin 0 → Fin S1x2048x2048x16.rank)
  bcast_S2048x16_S1x1x2048x16_2_3 : S2048x16.BroadcastsInDim S1x1x2048x16 (![2, 3] : Fin 2 → Fin S1x1x2048x16.rank)
  bcast_S1x1x2048x16_S1x2048x2048x16_0_1_2_3 : S1x1x2048x16.BroadcastsInDim S1x2048x2048x16 (![0, 1, 2, 3] : Fin 4 → Fin S1x2048x2048x16.rank)
  reducesTo_S1x2048x2048x16_S1x2048x2048_d3 : S1x2048x2048x16.ReducesTo [3] S1x2048x2048
  bcast_S2048_S1x1x2048_2 : S2048.BroadcastsInDim S1x1x2048 (![2] : Fin 1 → Fin S1x1x2048.rank)
  bcast_S1x1x2048_S1x2048x2048_0_1_2 : S1x1x2048.BroadcastsInDim S1x2048x2048 (![0, 1, 2] : Fin 3 → Fin S1x2048x2048.rank)
  gather_S1x2048x2048_S2048x16x1_S1x2048x2048x16_01_2_n_n_2_2_120481_wf : GatherDims.WF S1x2048x2048 S2048x16x1 S1x2048x2048x16 [0, 1] [2] [] [2] [] 2 ![1, 2048, 1]

variable [Facts₀]

def gather_S1x2048x2048_S2048x16x1_S1x2048x2048x16_01_2_n_n_2_2_120481 : GatherDims S1x2048x2048 S2048x16x1 S1x2048x2048x16 where
  offsetDims := [0, 1]
  collapsedSliceDims := [2]
  operandBatchingDims := []
  startIndicesBatchingDims := []
  startIndexMap := [2]
  indexVectorDim := 2
  sliceSizes := ![1, 2048, 1]
  wf := gather_S1x2048x2048_S2048x16x1_S1x2048x2048x16_01_2_n_n_2_2_120481_wf

class Facts : Prop extends Facts₀ where

variable [Facts]
-- ==== Proof.OneHot.lean ====
/-
  One step of the kernel's densification, read at an entry.

  The kernel turns the sixteen (index, weight) pairs of each output feature into a dense column: for step `s`
  it compares the row number `k` of every entry `(k, q)` of a `[2048, 512]` block with the index word
  `P[s, q]` and keeps the weight `W[s, q]` where they agree, zero elsewhere. At the entry `(k, q)` the step's
  term is therefore `hot P W k q s` = `W[s, q]` if `k` is the word `P[s, q]`, else `0`.
-/
import proofs.«112800_g34952443855185_cont_8to1_b_1957_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Idealize.ShloMosaic Idealize.ShloMosaic.ValueIdx Cert.KernelIdeal

/-- The term step `s` adds at entry `(k, q)`: the weight `W[s, q]` when the row number `k`, as a 32-bit word,
    is the index word `P[s, q]`; zero otherwise (and zero for a step number that is not one of the sixteen). -/
def hot (P : IVec S16x512 32) (W : FVec Ideal S16x512 .f32) (k : Fin 2048) (q : Fin 512) (s : ℕ) : EReal :=
  if hs : s < 16 then (if BitVec.ofNat 32 k.val = P (ix2 ⟨s, hs⟩ q) then W (ix2 ⟨s, hs⟩ q) else 0) else 0

/-- Row `s` of the index block, spread over the 2048 rows, read at `(k, q)`. -/
theorem index_row_apply (s : ℕ) (hs : s < 16) (hsl : S16x512.Slices ![s, 0] S1x512) (hb : S1x512.Broadcasts S2048x512)
    (P : IVec S16x512 32) (k : Fin 2048) (q : Fin 512) :
    broadcastTo S2048x512 (extractStridedSlice S1x512 ![s, 0] P hsl) hb (ix2 k q) = P (ix2 ⟨s, hs⟩ q) :=
  (broadcastTo_1b_ab_apply _ hb k q).trans (slice2_axis0_apply s P hsl (0 : Fin 1) q ⟨s, hs⟩ rfl)

/-- Row `s` of the weight block, spread over the 2048 rows, read at `(k, q)`. -/
theorem weight_row_apply (s : ℕ) (hs : s < 16) (hsl : S16x512.Slices ![s, 0] S1x512) (hb : S1x512.Broadcasts S2048x512)
    (hc : S1x512.ShapeCasts S1x512) (W : FVec Ideal S16x512 .f32) (k : Fin 2048) (q : Fin 512) :
    broadcastTo S2048x512 (shapeCast S1x512 (extractStridedSlice S1x512 ![s, 0] W hsl) hc) hb (ix2 k q) = W (ix2 ⟨s, hs⟩ q) := by
  refine (broadcastTo_1b_ab_apply _ hb k q).trans ?_
  rw [shapeCast_self]
  exact slice2_axis0_apply s W hsl (0 : Fin 1) q ⟨s, hs⟩ rfl

/-- A select on the equality test of two words is the `if` on their equality. -/
theorem select_cmpi_eq {α : Type} (a b : BitVec 32) (u v : α) :
    Scalar.select (IntOp.cmpi .eq a b) u v = if a = b then u else v := by
  show (if BitVec.ofBool (a == b) = 1 then u else v) = _
  by_cases h : a = b
  · subst h; simp
  · have hb : (a == b) = false := by simp [h]
    rw [if_neg h, hb]
    exact if_neg (by decide)

/-- THE STEP AT AN ENTRY. -/
theorem onehot_apply (s : ℕ) (hs : s < 16) (hsl : S16x512.Slices ![s, 0] S1x512) (hio : S2048x512.Iotas .tc 32 [0])
    (hb : S1x512.Broadcasts S2048x512) (hc : S1x512.ShapeCasts S1x512)
    (P : IVec S16x512 32) (W : FVec Ideal S16x512 .f32) (k : Fin 2048) (q : Fin 512) :
    select (cmpi .eq (iota .tc S2048x512 32 [0] hio) (broadcastTo S2048x512 (extractStridedSlice S1x512 ![s, 0] P hsl) hb))
        (broadcastTo S2048x512 (shapeCast S1x512 (extractStridedSlice S1x512 ![s, 0] W hsl) hc) hb)
        (broadcast S2048x512 (Scalar.ofBits (F := Ideal) .f32 0x00000000#32)) (ix2 k q)
      = hot P W k q s := by
  have e3 : iota .tc S2048x512 32 [0] hio (ix2 k q) = BitVec.ofNat 32 k.val :=
    iota_single_apply .tc S2048x512 32 0 hio (ix2 k q)
  unfold hot
  rw [dif_pos hs, select_apply, weight_row_apply s hs hsl hb hc W k q, broadcast_apply]
  show Scalar.select (IntOp.cmpi .eq (iota .tc S2048x512 32 [0] hio (ix2 k q))
      (broadcastTo S2048x512 (extractStridedSlice S1x512 ![s, 0] P hsl) hb (ix2 k q))) _ _ = _
  rw [e3, index_row_apply s hs hsl hb P k q, select_cmpi_eq]
  exact congrArg (fun z => if BitVec.ofNat 32 k.val = P (ix2 ⟨s, hs⟩ q) then W (ix2 ⟨s, hs⟩ q) else z) Ideal.ofBits_zero_f32

end Cert.KernelIdeal.Dense

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«112800_g34952443855185_cont_8to1_b_1957_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«112800_g34952443855185_cont_8to1_b_1957_2_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.Payload.lean ====
/-
  What the kernel body stores, read at an entry.

  The body adds the sixteen steps' terms (OneHot.lean) from zero, one after the other, into a dense `[2048, 512]`
  block of columns, multiplies the resident `[2048, 2048]` input by it and adds the bias row. At entry `(p, q)` of
  the stored block that is

      (Σ_k X[p, k] · (Σ_{s < 16} hot P W k q s)) + B[0, q].
-/
import proofs.«112800_g34952443855185_cont_8to1_b_1957_2_alg».proof.Proof.Gen.KernelIdeal.Frame
import proofs.«112800_g34952443855185_cont_8to1_b_1957_2_alg».proof.Proof.OneHot
import proofs.«112800_g34952443855185_cont_8to1_b_1957_2_alg».proof.Proof.LibPlainRecord

noncomputable section

namespace Cert.KernelIdeal.Dense

open Idealize.ShloMosaic Idealize.ShloMosaic.ValueIdx Cert.KernelIdeal Cert.KernelIdeal.Gen

/-- A slice of one row starting at row `s` of sixteen starts below sixteen. -/
theorem lt_of_slices {s : ℕ} (hsl : S16x512.Slices ![s, 0] S1x512) : s < 16 :=
  Nat.lt_of_succ_le (hsl.2 0)

/-- One more step added to an accumulated block `A`, at an entry. -/
theorem step_apply (s : ℕ) (hsl : S16x512.Slices ![s, 0] S1x512) (hio : S2048x512.Iotas .tc 32 [0])
    (hb : S1x512.Broadcasts S2048x512) (hc : S1x512.ShapeCasts S1x512)
    (P : IVec S16x512 32) (W : FVec Ideal S16x512 .f32) (k : Fin 2048) (q : Fin 512) :
    select (cmpi .eq (iota .tc S2048x512 32 [0] hio) (broadcastTo S2048x512 (extractStridedSlice S1x512 ![s, 0] P hsl) hb))
        (broadcastTo S2048x512 (shapeCast S1x512 (extractStridedSlice S1x512 ![s, 0] W hsl) hc) hb)
        (broadcast S2048x512 (Scalar.ofBits (F := Ideal) .f32 0x00000000#32)) (ix2 k q)
      = hot P W k q s :=
  onehot_apply s (lt_of_slices hsl) hsl hio hb hc P W k q

/-- The loaded index block is used as loaded. -/
theorem pay2_eq (P : Vec Ideal S16x512 .i32) : k0_pay2 (F := Ideal) P = P := shapeCast_self _ _
/-- The loaded weight block is used as loaded. -/
theorem pay3_eq (W : Vec Ideal S16x512 .f32) : k0_pay3 (F := Ideal) W = W := shapeCast_self _ _

/-- The dense column block the sixteen steps build, at entry `(k, q)`. -/
def accAt (P : IVec S16x512 32) (W : FVec Ideal S16x512 .f32) (k : Fin 2048) (q : Fin 512) : EReal :=
  ∑ s ∈ Finset.range 16, hot P W k q s

/-- The kernel's dimension record is a plain rows-times-matrix product. -/
theorem dot_plain : Cert.LibMatRows.RowsTimesMat dot_S2048x2048_S2048x512_S2048x512_1_0_0_1_n_n :=
  Cert.LibPlainRecord.rowsTimesMat_of_lists _ rfl rfl rfl rfl rfl rfl

/-- WHAT THE BODY STORES, AT AN ENTRY: the input row times the dense column, plus the bias. -/
theorem stored_apply (P : Vec Ideal S16x512 .i32) (W : Vec Ideal S16x512 .f32) (B : Vec Ideal S1x512 .f32)
    (X : Vec Ideal S2048x2048 .f32) (p : Fin 2048) (q : Fin 512) :
    k0_pay1 (F := Ideal)
        (k0_pay12 (k0_pay2 P) (k0_pay3 W) (iota .tc S2048x512 32 [0] iota_S2048x512_d0_w32)
          (k0_pay8 (k0_pay2 P) (k0_pay3 W) (iota .tc S2048x512 32 [0] iota_S2048x512_d0_w32) (k0_pay4 P W) (k0_pay5 P) (k0_pay6 W) (k0_pay7 (F := Ideal)))
          (k0_pay9 (k0_pay2 P) (iota .tc S2048x512 32 [0] iota_S2048x512_d0_w32)) (k0_pay10 (k0_pay3 W)) (k0_pay11 (F := Ideal)) X) B (ix2 p q)
      = (∑ k : Fin 2048, X (ix2 p k) * accAt P W k q) + B (ix2 (0 : Fin 1) q) := by
  unfold k0_pay1 k0_pay12
  dsimp only
  rw [addf_apply]
  refine congrArg₂ (· + ·) ?_ ?_
  · refine (Cert.LibMatRows.matmul_rows dot_plain _ _ p q).trans (Finset.sum_congr rfl fun k _ => ?_)
    rw [shapeCast_self]
    refine congrArg (X (ix2 p k) * ·) ?_
    unfold k0_pay8 k0_pay4 k0_pay5 k0_pay6 k0_pay7 k0_pay9 k0_pay10 k0_pay11
    simp only [addf_apply, broadcast_apply]
    rw [step_apply 0, step_apply 1, step_apply 2, step_apply 3, step_apply 4, step_apply 5, step_apply 6, step_apply 7,
      step_apply 8, step_apply 9, step_apply 10, step_apply 11, step_apply 12, step_apply 13, step_apply 14, step_apply 15,
      pay2_eq, pay3_eq]
    unfold accAt
    simp only [Finset.sum_range_succ, Finset.sum_range_zero]
    rw [show (FloatOps.ofBits FTy.f32 0#32 : Ideal .f32) = (0 : EReal) from Ideal.ofBits_zero_f32]
  · refine (broadcastTo_1b_ab_apply _ _ p q).trans ?_
    rw [shapeCast_self]

/-- The offsets of a whole-buffer access are zero on both axes. -/
theorem hz : (![0, 0] : Fin 2 → Nat) = fun _ => 0 := funext fun a => by fin_cases a <;> rfl

/-- WHAT THE BODY LEAVES IN THE OUTPUT'S BUFFER, at an entry: its one store covers the buffer, and its loads read
    the input buffers whole. -/
theorem out_apply (x0 : Vec Ideal S16x512 .i32) (x1 : Vec Ideal S16x512 .f32) (x2 : Vec Ideal S1x512 .f32)
    (x3 : Vec Ideal S2048x2048 .f32) (p : Fin 2048) (q : Fin 512) :
    out0_4 (F := Ideal) x0 x1 x2 x3 (ix2 p q) = (∑ k : Fin 2048, x3 (ix2 p k) * accAt x0 x1 k q) + x2 (ix2 (0 : Fin 1) q) := by
  unfold out0_4
  rw [View.canon_unit_zero hz]
  simp only [View.ld_unit_zero (S := S16x512) hz, View.ld_unit_zero (S := S1x512) hz, View.ld_unit_zero (S := S2048x2048) hz]
  exact stored_apply x0 x1 x2 x3 p q

end Cert.KernelIdeal.Dense

end
-- ==== Proof.Blocks.lean ====
/-
  From the grid's blocks to the output array.

  The grid has four points; point `t` works on the 512 output features `t·512 … t·512 + 511`: it is handed rows
  `0…15` and those 512 columns of the transposed index and weight arrays, the same 512 columns of the bias row, and
  the whole `[2048, 2048]` input, and writes the `[2048, 512]` block of those columns of the output. Every block
  is the restriction of ONE function `G4` of the arrays as the region finds them,

      G4[p, o] = (Σ_k Xa[p, k] · (Σ_{s < 16} [k = Pa[s, o]] · Wa[s, o])) + Ba[0, o],

  and the four blocks tile the output, so the output array ends holding `G4`.
-/
import proofs.«112800_g34952443855185_cont_8to1_b_1957_2_alg».proof.Proof.Gen.KernelIdeal.Frame
import proofs.«112800_g34952443855185_cont_8to1_b_1957_2_alg».proof.Proof.Payload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Dense
open Idealize.ShloMosaic.Pipeline (Dat)

/-- A step's term over the whole transposed arrays: the weight `Wa[s, o]` where the row number `k` is the index word
    `Pa[s, o]`, zero elsewhere. -/
def hotA (Pa : S16x2048.Idx → BitVec 32) (Wa : S16x2048.Idx → EReal) (k o : Fin 2048) (s : ℕ) : EReal :=
  if hs : s < 16 then (if BitVec.ofNat 32 k.val = Pa (ix2 ⟨s, hs⟩ o) then Wa (ix2 ⟨s, hs⟩ o) else 0) else 0

/-- The output at row `p`, feature `o`, from the arrays as the region finds them. -/
def G4At (Pa : S16x2048.Idx → BitVec 32) (Wa : S16x2048.Idx → EReal) (Ba : S1x2048.Idx → EReal)
    (Xa : S2048x2048.Idx → EReal) (p o : Fin 2048) : EReal :=
  (∑ k : Fin 2048, Xa (ix2 p k) * ∑ s ∈ Finset.range 16, hotA Pa Wa k o s) + Ba (ix2 (0 : Fin 1) o)

/-- The output array `[2048, 2048]`. -/
def G4 (Pa : S16x2048.Idx → BitVec 32) (Wa : S16x2048.Idx → EReal) (Ba : S1x2048.Idx → EReal)
    (Xa : S2048x2048.Idx → EReal) : S2048x2048.Idx → EReal :=
  fun i => G4At Pa Wa Ba Xa ⟨(i 0).val, (i 0).isLt⟩ ⟨(i 1).val, (i 1).isLt⟩

/-- A block's value from blocks that are restrictions of the arrays: the entry `(p, q)` of the block of features
    starting at `o − q` is `G4At` at `(p, o)`. -/
theorem value_of_blocks (x0 : Vec Ideal S16x512 .i32) (x1 : Vec Ideal S16x512 .f32) (x2 : Vec Ideal S1x512 .f32)
    (x3 : Vec Ideal S2048x2048 .f32) (Pa : S16x2048.Idx → BitVec 32) (Wa : S16x2048.Idx → EReal)
    (Ba : S1x2048.Idx → EReal) (Xa : S2048x2048.Idx → EReal) (p : Fin 2048) (q : Fin 512) (o : Fin 2048)
    (h0 : ∀ s : Fin 16, x0 (ix2 s q) = Pa (ix2 s o)) (h1 : ∀ s : Fin 16, x1 (ix2 s q) = Wa (ix2 s o))
    (h2 : x2 (ix2 (0 : Fin 1) q) = Ba (ix2 (0 : Fin 1) o)) (h3 : ∀ k : Fin 2048, x3 (ix2 p k) = Xa (ix2 p k)) :
    (∑ k : Fin 2048, x3 (ix2 p k) * accAt x0 x1 k q) + x2 (ix2 (0 : Fin 1) q) = G4At Pa Wa Ba Xa p o := by
  unfold G4At accAt
  rw [h2]
  refine congrArg (· + Ba (ix2 (0 : Fin 1) o)) (Finset.sum_congr rfl fun k _ => ?_)
  rw [h3 k]
  refine congrArg (Xa (ix2 p k) * ·) (Finset.sum_congr rfl fun s _ => ?_)
  unfold hot hotA
  by_cases hs : s < 16
  · rw [dif_pos hs, dif_pos hs, h0 ⟨s, hs⟩, h1 ⟨s, hs⟩]
  · rw [dif_neg hs, dif_neg hs]

variable (m : (ℓ : Loc nD τ sig) → Buf (Elt Ideal) ℓ) (ρ : Dev nD → PrngReg)

/-- The printed index maps over the four points: every window is on block row 0; the index, weight, bias and
    output windows are on block column `t`, the input window on block column 0. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The grid has four points. -/
theorem t_lt (t : Fin cfg0.N) : t.val < 4 := by
  have h : grid0.N = 4 := N_0
  have h' : t.val < grid0.N := t.isLt
  omega

/-- WHAT POINT `t` WRITES BACK is block `t` of `G4` of the arrays as the region finds them. -/
theorem flushed4_eq (c : Dev nD) (t : Fin cfg0.N) :
    (dats m 0 c).flushed 4 t
      = ((cfg0.win 4).blk t).view.read (Elt Ideal) (G4 (V m c main_v1) (V m c main_v2) (V m c main_v3) (V m c main_v0)) := by
  show (cfg0.win 4).cut (grid0.coords t) ((dats m 0 c).after 4 t) = _
  rw [after0_4]
  obtain ⟨e00, e01, e10, e11, e20, e21, e30, e31, e40, e41⟩ := idx_facts t
  have ht := t_lt t
  funext j
  obtain ⟨p, q, rfl⟩ : ∃ (p : Fin 2048) (q : Fin 512), j = ix2 p q := ⟨j 0, j 1, eq_ix2 j⟩
  show out0_4 (iblk m c 0 t) (iblk m c 1 t) (iblk m c 2 t) (iblk m c 3 t) (ix2 p q)
    = G4 (V m c main_v1) (V m c main_v2) (V m c main_v3) (V m c main_v0) (((cfg0.win 4).blk t).view.emb (ix2 p q))
  refine (out_apply (iblk m c 0 t) (iblk m c 1 t) (iblk m c 2 t) (iblk m c 3 t) p q).trans ?_
  have hq : q.val < 512 := q.isLt
  have ho : t.val * 512 + q.val < 2048 := by omega
  have hi0 : ((((cfg0.win 4).blk t).view.emb (ix2 p q)) 0).val = p.val := by
    show win0_4.index t (0 : Fin 2) * 2048 + 1 * p.val = p.val
    rw [e40]; omega
  have hi1 : ((((cfg0.win 4).blk t).view.emb (ix2 p q)) 1).val = t.val * 512 + q.val := by
    show win0_4.index t (1 : Fin 2) * 512 + 1 * q.val = t.val * 512 + q.val
    rw [e41]; omega
  have hG : G4 (V m c main_v1) (V m c main_v2) (V m c main_v3) (V m c main_v0) (((cfg0.win 4).blk t).view.emb (ix2 p q))
      = G4At (V m c main_v1) (V m c main_v2) (V m c main_v3) (V m c main_v0) p ⟨t.val * 512 + q.val, ho⟩ := by
    unfold G4
    exact congrArg₂ (G4At (V m c main_v1) (V m c main_v2) (V m c main_v3) (V m c main_v0)) (Fin.ext hi0) (Fin.ext hi1)
  refine Eq.trans ?_ hG.symm
  refine value_of_blocks (iblk m c 0 t) (iblk m c 1 t) (iblk m c 2 t) (iblk m c 3 t) (V m c main_v1) (V m c main_v2)
    (V m c main_v3) (V m c main_v0) p q ⟨t.val * 512 + q.val, ho⟩ ?_ ?_ ?_ ?_
  · intro s
    show V m c main_v1 (((cfg0.win 0).blk t).view.emb (ix2 s q)) = V m c main_v1 (ix2 s ⟨t.val * 512 + q.val, ho⟩)
    refine congrArg _ (funext fun a => Fin.ext ?_)
    match a with
    | ⟨0, _⟩ => show win0_0.index t (0 : Fin 2) * 16 + 1 * s.val = s.val; rw [e00]; omega
    | ⟨1, _⟩ => show win0_0.index t (1 : Fin 2) * 512 + 1 * q.val = t.val * 512 + q.val; rw [e01]; omega
  · intro s
    show V m c main_v2 (((cfg0.win 1).blk t).view.emb (ix2 s q)) = V m c main_v2 (ix2 s ⟨t.val * 512 + q.val, ho⟩)
    refine congrArg _ (funext fun a => Fin.ext ?_)
    match a with
    | ⟨0, _⟩ => show win0_1.index t (0 : Fin 2) * 16 + 1 * s.val = s.val; rw [e10]; omega
    | ⟨1, _⟩ => show win0_1.index t (1 : Fin 2) * 512 + 1 * q.val = t.val * 512 + q.val; rw [e11]; omega
  · show V m c main_v3 (((cfg0.win 2).blk t).view.emb (ix2 (0 : Fin 1) q)) = V m c main_v3 (ix2 (0 : Fin 1) ⟨t.val * 512 + q.val, ho⟩)
    refine congrArg _ (funext fun a => Fin.ext ?_)
    match a with
    | ⟨0, _⟩ => show win0_2.index t (0 : Fin 2) * 1 + 1 * 0 = 0; rw [e20]
    | ⟨1, _⟩ => show win0_2.index t (1 : Fin 2) * 512 + 1 * q.val = t.val * 512 + q.val; rw [e21]; omega
  · intro k
    show V m c main_v0 (((cfg0.win 3).blk t).view.emb (ix2 p k)) = V m c main_v0 (ix2 p k)
    refine congrArg _ (funext fun a => Fin.ext ?_)
    match a with
    | ⟨0, _⟩ => show win0_3.index t (0 : Fin 2) * 2048 + 1 * p.val = p.val; rw [e30]; omega
    | ⟨1, _⟩ => show win0_3.index t (1 : Fin 2) * 2048 + 1 * k.val = k.val; rw [e31]; omega

/-- An index of the output is in point `t`'s block iff each coordinate is in the block's range on its axis. -/
theorem mem_blk4 (t : Fin cfg0.N) (i : S2048x2048.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v4).slice (win0_4.rect t)).set ↔ _
  rw [View.set_slice_whole, Rect.mem_set_unit]
  exact Iff.rfl

/-- The four blocks tile the output: the entry `(p, o)` is in the block of point `o / 512`. -/
theorem cover4 (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  have hN : grid0.N = 4 := N_0
  have hlt : (i 1).val / 512 < grid0.N := by rw [hN]; omega
  refine ⟨⟨(i 1).val / 512, hlt⟩, flush0_4 _, ?_⟩
  rw [mem_blk4]
  obtain ⟨-, -, -, -, -, -, -, -, e40, e41⟩ := idx_facts ⟨(i 1).val / 512, hlt⟩
  intro a
  match a with
  | ⟨0, _⟩ =>
    show win0_4.index ⟨(i 1).val / 512, hlt⟩ (0 : Fin 2) * 2048 ≤ (i 0).val
      ∧ (i 0).val < win0_4.index ⟨(i 1).val / 512, hlt⟩ (0 : Fin 2) * 2048 + 2048
    rw [e40]; omega
  | ⟨1, _⟩ =>
    show win0_4.index ⟨(i 1).val / 512, hlt⟩ (1 : Fin 2) * 512 ≤ (i 1).val
      ∧ (i 1).val < win0_4.index ⟨(i 1).val / 512, hlt⟩ (1 : Fin 2) * 512 + 512
    rw [e41]
    show (i 1).val / 512 * 512 ≤ (i 1).val ∧ (i 1).val < (i 1).val / 512 * 512 + 512
    omega

/-- THE OUTPUT ARRAY after the region: `G4` of the arrays as the region finds them. -/
theorem final4 (c : Dev nD) :
    (dats m 0 c).arrAt 4 cfg0.N = G4 (V m c main_v1) (V m c main_v2) (V m c main_v3) (V m c main_v0) :=
  (dats m 0 c).arrAt_eq_of_cover 4 (G4 (V m c main_v1) (V m c main_v2) (V m c main_v3) (V m c main_v0))
    (fun t _ => flushed4_eq m c t) cover4

end Cert.KernelIdeal.Blocks

end
-- ==== Proof.Spec.lean ====
/-
  The specification both programs are compared with.

  For an input row `x[t, ·]` of 2048 numbers, an output feature `o` reads sixteen of them — the columns the
  index words `perm[o, 0..15]` name — multiplies each by its weight `w[o, s]`, adds the products and then the
  bias `b[o]`:

      out[t, o] = (Σ_{s < 16} x[t, perm[o, s]] · w[o, s]) + b[o].

  An index word is turned into a column by `col`, its value as a natural number reduced modulo 2048, so that the
  specification is a total function of the four arrays; for a word in `[0, 2048)` (the only words the
  precondition admits) that is the word's value itself (`col_val_of_lt`).
-/
import Idealize.ShloMosaic.PureOps.Ideal
import Idealize.ShloMosaic.Lib.ValueIdx

noncomputable section

namespace Cert.Spec

open Idealize.ShloMosaic Idealize.ShloMosaic.ValueIdx

/-- The column of the input row an index word selects. -/
def col (p : BitVec 32) : Fin 2048 := ⟨p.toNat % 2048, Nat.mod_lt _ (by norm_num)⟩

/-- For a word below 2048 the selected column is the word's value. -/
theorem col_val_of_lt {p : BitVec 32} (h : p.toNat < 2048) : (col p).val = p.toNat := Nat.mod_eq_of_lt h

/-- The output at row `t`, feature `o`: the sixteen selected entries of the row, weighted and summed, plus the bias. -/
def specAt (x : (⟨3, ![1, 2048, 2048]⟩ : Shape).Idx → EReal) (p : (⟨2, ![2048, 16]⟩ : Shape).Idx → BitVec 32)
    (w : (⟨2, ![2048, 16]⟩ : Shape).Idx → EReal) (b : (⟨1, ![2048]⟩ : Shape).Idx → EReal) (t o : Fin 2048) : EReal :=
  (∑ s : Fin 16, x (ix3 (0 : Fin 1) t (col (p (ix2 o s)))) * w (ix2 o s)) + b (ix1 o)

/-- The whole output array `[1, 2048, 2048]`. -/
def spec (x : (⟨3, ![1, 2048, 2048]⟩ : Shape).Idx → EReal) (p : (⟨2, ![2048, 16]⟩ : Shape).Idx → BitVec 32)
    (w : (⟨2, ![2048, 16]⟩ : Shape).Idx → EReal) (b : (⟨1, ![2048]⟩ : Shape).Idx → EReal) :
    (⟨3, ![1, 2048, 2048]⟩ : Shape).Idx → EReal :=
  fun i => specAt x p w b ⟨(i 1).val, (i 1).isLt⟩ ⟨(i 2).val, (i 2).isLt⟩

theorem spec_ix3 (x : (⟨3, ![1, 2048, 2048]⟩ : Shape).Idx → EReal) (p : (⟨2, ![2048, 16]⟩ : Shape).Idx → BitVec 32)
    (w : (⟨2, ![2048, 16]⟩ : Shape).Idx → EReal) (b : (⟨1, ![2048]⟩ : Shape).Idx → EReal) (u : Fin 1) (t o : Fin 2048) :
    spec x p w b (ix3 u t o) = specAt x p w b t o := rfl

end Cert.Spec

end
-- ==== Proof.Algebra.lean ====
/-
  The law that joins the two programs.

  A dense contraction of a row `x` with a column that has the weight `w s` at position `c s` for each of
  finitely many `s` (positions may repeat: their weights add) and zero elsewhere is the sum of the selected
  entries, each times its weight:

      Σ_k x k · (Σ_s [k = c s] · w s) = Σ_s x (c s) · w s.

  It uses distributivity, so it is proved for REAL entries and weights (read as extended reals): with an infinite
  entry the left side could meet `∞ · 0` terms and `∞ − ∞` that the right side does not.
-/
import Mathlib.Data.EReal.Basic
import Mathlib.Algebra.BigOperators.Group.Finset.Basic
import Mathlib.Tactic

namespace Cert.Algebra

open scoped BigOperators

/-- The extended real of a finite real sum is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem dense_eq_gather_real {K S : Type*} [Fintype K] [DecidableEq K] [Fintype S] (x : K → ℝ) (w : S → ℝ) (c : S → K) :
    (∑ k : K, x k * ∑ s : S, (if k = c s then w s else 0)) = ∑ s : S, x (c s) * w s := by
  simp_rw [Finset.mul_sum]
  rw [Finset.sum_comm]
  refine Finset.sum_congr rfl fun s _ => ?_
  simp_rw [mul_ite, mul_zero]
  rw [Finset.sum_ite_eq' Finset.univ (c s) fun k => x k * w s]
  simp

/-- The law for real entries and weights read as extended reals. -/
theorem dense_eq_gather {K S : Type*} [Fintype K] [DecidableEq K] [Fintype S] (x : K → ℝ) (w : S → ℝ) (c : S → K) :
    (∑ k : K, (x k : EReal) * ∑ s : S, (if k = c s then (w s : EReal) else 0)) = ∑ s : S, (x (c s) : EReal) * (w s : EReal) := by
  have h1 : ∀ k : K, (∑ s : S, (if k = c s then (w s : EReal) else 0)) = ((∑ s : S, (if k = c s then w s else 0) : ℝ) : EReal) := by
    intro k
    rw [coe_sum]
    refine Finset.sum_congr rfl fun s _ => ?_
    split <;> simp
  simp_rw [h1, ← EReal.coe_mul, ← coe_sum]
  rw [dense_eq_gather_real]

end Cert.Algebra
-- ==== Proof.Bridge.lean ====
/-
  The kernel's entry is the specification's.

  Read off the argument arrays, the kernel computes at row `t`, feature `o`

      kernelAt = (Σ_k x[t, k] · (Σ_{s < 16} [k = perm[o, s]] · w[o, s])) + b[o],

  the comparison being of the row number `k`, written as a 32-bit word, with the index word. For an index word in
  `[0, 2048)` the word of `k` is that word exactly when `k` is the column the word selects, so the inner sum is the
  dense column of Algebra.lean and, the entries and weights being real, the contraction is the specification's
  sixteen-term sum (`Cert.Algebra.dense_eq_gather`).
-/
import proofs.«112800_g34952443855185_cont_8to1_b_1957_2_alg».proof.Proof.Spec
import proofs.«112800_g34952443855185_cont_8to1_b_1957_2_alg».proof.Proof.Algebra

noncomputable section

namespace Cert.Bridge

open Idealize.ShloMosaic Idealize.ShloMosaic.ValueIdx Cert.Spec

/-- The kernel's entry at row `t`, feature `o`, from the argument arrays. -/
def kernelAt (x : (⟨3, ![1, 2048, 2048]⟩ : Shape).Idx → EReal) (p : (⟨2, ![2048, 16]⟩ : Shape).Idx → BitVec 32)
    (w : (⟨2, ![2048, 16]⟩ : Shape).Idx → EReal) (b : (⟨1, ![2048]⟩ : Shape).Idx → EReal) (t o : Fin 2048) : EReal :=
  (∑ k : Fin 2048, x (ix3 (0 : Fin 1) t k) * ∑ s ∈ Finset.range 16,
      (if hs : s < 16 then (if BitVec.ofNat 32 k.val = p (ix2 o ⟨s, hs⟩) then w (ix2 o ⟨s, hs⟩) else 0) else 0))
    + b (ix1 o)

/-- For an index word below 2048, a row number below 2048 written as a word is that word exactly when it is the
    column the word selects. -/
theorem word_eq_iff (k : Fin 2048) (a : BitVec 32) (ha : a.toNat < 2048) : BitVec.ofNat 32 k.val = a ↔ k = col a := by
  have hk : k.val < 2048 := k.isLt
  constructor
  · intro h
    refine Fin.ext ?_
    rw [col_val_of_lt ha, ← h, BitVec.toNat_ofNat]
    omega
  · intro h
    have hv : k.val = a.toNat := by rw [h, col_val_of_lt ha]
    rw [hv, BitVec.ofNat_toNat, BitVec.setWidth_eq]

/-- The sum over the sixteen step numbers as a sum over `Fin 16`. -/
theorem sum_range16 (f : Fin 16 → EReal) :
    (∑ s ∈ Finset.range 16, (if hs : s < 16 then f ⟨s, hs⟩ else 0)) = ∑ s : Fin 16, f s := by
  rw [← Fin.sum_univ_eq_sum_range (fun s => if hs : s < 16 then f ⟨s, hs⟩ else 0) 16]
  exact Finset.sum_congr rfl fun s _ => by rw [dif_pos s.isLt]

/-- THE KERNEL'S ENTRY IS THE SPECIFICATION'S, for real entries and weights and index words in `[0, 2048)`. -/
theorem kernelAt_eq_specAt (x : (⟨3, ![1, 2048, 2048]⟩ : Shape).Idx → EReal) (p : (⟨2, ![2048, 16]⟩ : Shape).Idx → BitVec 32)
    (w : (⟨2, ![2048, 16]⟩ : Shape).Idx → EReal) (b : (⟨1, ![2048]⟩ : Shape).Idx → EReal)
    (hx : ∀ i, ∃ r : ℝ, x i = (r : EReal)) (hp : ∀ i, (p i).toNat < 2048) (hw : ∀ i, ∃ r : ℝ, w i = (r : EReal))
    (t o : Fin 2048) : kernelAt x p w b t o = specAt x p w b t o := by
  unfold kernelAt specAt
  refine congrArg (· + b (ix1 o)) ?_
  choose xr hxr using hx
  choose wr hwr using hw
  have h := Cert.Algebra.dense_eq_gather (fun k : Fin 2048 => xr (ix3 (0 : Fin 1) t k)) (fun s : Fin 16 => wr (ix2 o s))
    (fun s : Fin 16 => col (p (ix2 o s)))
  simp only [hxr, hwr]
  refine Eq.trans (Finset.sum_congr rfl fun k _ => ?_) h
  refine congrArg (fun z => (xr (ix3 (0 : Fin 1) t k) : EReal) * z) ?_
  rw [sum_range16 (fun s => if BitVec.ofNat 32 k.val = p (ix2 o s) then (wr (ix2 o s) : EReal) else 0)]
  refine Finset.sum_congr rfl fun s _ => ?_
  exact if_congr (word_eq_iff k _ (hp _)) rfl rfl

end Cert.Bridge

end
-- ==== Proof.KernelRun.lean ====
/-
  The kernel program's run, read as a value.

  Before the region the host reshapes the input to `[2048, 2048]`, transposes the index and weight arrays to
  `[16, 2048]` and views the bias as a row `[1, 2048]`; after it, it views the `[2048, 2048]` output as
  `[1, 2048, 2048]`. Read through these, the output array of Blocks.lean at `(p, o)` is `Cert.Bridge.kernelAt` of
  the argument arrays, and so — for real entries and weights and index words in range — the specification.
-/
import proofs.«112800_g34952443855185_cont_8to1_b_1957_2_alg».proof.Proof.Gen.KernelIdeal.Frame
import proofs.«112800_g34952443855185_cont_8to1_b_1957_2_alg».proof.Proof.Blocks
import proofs.«112800_g34952443855185_cont_8to1_b_1957_2_alg».proof.Proof.Bridge
import Idealize.ShloMosaic.Lib.ValueLayout
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Blocks

variable (m : (ℓ : Loc nD τ sig) → Buf (Elt Ideal) ℓ) (ρ : Dev nD → PrngReg)

/-- The input as the region finds it: the argument with its leading unit axis dropped. -/
theorem V_v0 (c : Dev nD) : (V m c main_v0 : S2048x2048.Idx → EReal)
    = shapeCast S2048x2048 (m ((c : Thread nD τ).loc main_arg0)) shapeCasts_S1x2048x2048_S2048x2048 := by
  show StableHlo.after hostOps0 (fun b => m (c, b)) (Proc.devRef .tc main_v0) = _
  after_results
  rfl

/-- The index words as the region finds them: the argument transposed. -/
theorem V_v1 (c : Dev nD) : (V m c main_v1 : S16x2048.Idx → BitVec 32)
    = transpose S16x2048 [1, 0] (m ((c : Thread nD τ).loc main_arg1)) transposes_S2048x16_S16x2048_1_0 := by
  show StableHlo.after hostOps0 (fun b => m (c, b)) (Proc.devRef .tc main_v1) = _
  after_results

/-- The weights as the region finds them: the argument transposed. -/
theorem V_v2 (c : Dev nD) : (V m c main_v2 : S16x2048.Idx → EReal)
    = transpose S16x2048 [1, 0] (m ((c : Thread nD τ).loc main_arg2)) transposes_S2048x16_S16x2048_1_0 := by
  show StableHlo.after hostOps0 (fun b => m (c, b)) (Proc.devRef .tc main_v2) = _
  after_results

/-- The bias as the region finds it: the argument as a row. -/
theorem V_v3 (c : Dev nD) : (V m c main_v3 : S1x2048.Idx → EReal)
    = shapeCast S1x2048 (m ((c : Thread nD τ).loc main_arg3)) shapeCasts_S2048_S1x2048 := by
  show StableHlo.after hostOps0 (fun b => m (c, b)) (Proc.devRef .tc main_v3) = _
  after_results
  rfl

/-- The result buffer after the lines that follow the region. -/
theorem tail_eq (c : Dev nD) :
    (Pipeline.afterTail₀ cfgs (dats m) 0 (V0 m) [hostOps1] c main_v5 : S1x2048x2048.Idx → EReal)
      = shapeCast S1x2048x2048 (G4 (V m c main_v1) (V m c main_v2) (V m c main_v3) (V m c main_v0)) shapeCasts_S2048x2048_S1x2048x2048 := by
  unfold Pipeline.afterTail₀
  show StableHlo.after hostOps1 _ (Proc.devRef .tc main_v5) = _
  after_results
  have h4 : Pipeline.withArrays (cfgs 0).spec c (V0 m c) (fun w => (dats m 0 c).arrAt w (cfgs 0).N) (Proc.devRef .tc main_v4)
      = G4 (V m c main_v1) (V m c main_v2) (V m c main_v3) (V m c main_v0) :=
    (Pipeline.withArrays_arr spec0 launch0.win.arr_inj c (V0 m c) (fun w => (dats m 0 c).arrAt w cfg0.N) 4).trans (final4 m c)
  rw [h4]
  rfl

/-- The input as the region finds it, at an entry. -/
theorem V_v0_apply (c : Dev nD) (p k : Fin 2048) :
    V m c main_v0 (ix2 p k) = m ((c : Thread nD τ).loc main_arg0) (ix3 (0 : Fin 1) p k) := by
  rw [V_v0]; exact shapeCast_1ab_ab_apply _ _ p k

/-- The index words as the region finds them, at an entry: step `s` of feature `o`. -/
theorem V_v1_apply (c : Dev nD) (s : Fin 16) (o : Fin 2048) :
    V m c main_v1 (ix2 s o) = m ((c : Thread nD τ).loc main_arg1) (ix2 o s) := by
  rw [V_v1]; exact transpose_ix2_apply _ _ s o

/-- The weights as the region finds them, at an entry. -/
theorem V_v2_apply (c : Dev nD) (s : Fin 16) (o : Fin 2048) :
    V m c main_v2 (ix2 s o) = m ((c : Thread nD τ).loc main_arg2) (ix2 o s) := by
  rw [V_v2]; exact transpose_ix2_apply _ _ s o

/-- The bias row as the region finds it, at an entry. -/
theorem V_v3_apply (c : Dev nD) (o : Fin 2048) :
    V m c main_v3 (ix2 (0 : Fin 1) o) = m ((c : Thread nD τ).loc main_arg3) (ix1 o) := by
  rw [V_v3]; exact shapeCast_a_1a_apply _ _ 0 o

/-- The output array's entry, read through the host's re-layouts, is the kernel's entry of the argument arrays. -/
theorem G4At_eq (c : Dev nD) (p o : Fin 2048) :
    G4At (V m c main_v1) (V m c main_v2) (V m c main_v3) (V m c main_v0) p o
      = Cert.Bridge.kernelAt (m ((c : Thread nD τ).loc main_arg0)) (m ((c : Thread nD τ).loc main_arg1))
          (m ((c : Thread nD τ).loc main_arg2)) (m ((c : Thread nD τ).loc main_arg3)) p o := by
  unfold G4At Cert.Bridge.kernelAt
  rw [V_v3_apply]
  refine congrArg₂ (· + ·) (Finset.sum_congr rfl fun k _ => ?_) rfl
  rw [V_v0_apply]
  refine congrArg₂ (· * ·) rfl (Finset.sum_congr rfl fun s _ => ?_)
  unfold hotA
  by_cases hs : s < 16
  · rw [dif_pos hs, dif_pos hs, V_v1_apply, V_v2_apply]
  · rw [dif_neg hs, dif_neg hs]

/-- THE RESULT BUFFER is the specification of the argument arrays, for real entries and weights and index words in range. -/
theorem result_eq (c : Dev nD)
    (hx : ∀ i, ∃ r : ℝ, m ((c : Thread nD τ).loc main_arg0) i = (r : EReal))
    (hp : ∀ i, (m ((c : Thread nD τ).loc main_arg1) i).toNat < 2048)
    (hw : ∀ i, ∃ r : ℝ, m ((c : Thread nD τ).loc main_arg2) i = (r : EReal)) :
    Pipeline.afterTail₀ cfgs (dats m) 0 (V0 m) [hostOps1] c main_v5
      = Cert.Spec.spec (m ((c : Thread nD τ).loc main_arg0)) (m ((c : Thread nD τ).loc main_arg1))
          (m ((c : Thread nD τ).loc main_arg2)) (m ((c : Thread nD τ).loc main_arg3)) := by
  refine (tail_eq m c).trans ?_
  funext i
  obtain ⟨u, p, o, rfl⟩ : ∃ (u : Fin 1) (p o : Fin 2048), i = ix3 u p o := ⟨i 0, i 1, i 2, eq_ix3 i⟩
  rw [shapeCast_ab_1ab_apply, Cert.Spec.spec_ix3]
  show G4At (V m c main_v1) (V m c main_v2) (V m c main_v3) (V m c main_v0) p o = _
  rw [G4At_eq]
  exact Cert.Bridge.kernelAt_eq_specAt _ _ _ _ hx hp hw p o

/-- THE KERNEL PROGRAM'S RUN: every weakly fair execution terminates with the result at the specification of the
    argument arrays, and the arguments unchanged. -/
theorem run (hx : ∀ (c : Dev nD) i, ∃ r : ℝ, m ((c.tc : Thread nD τ).loc main_arg0) i = (r : EReal))
    (hp : ∀ (c : Dev nD) i, (m ((c.tc : Thread nD τ).loc main_arg1) i).toNat < 2048)
    (hw : ∀ (c : Dev nD) i, ∃ r : ℝ, m ((c.tc : Thread nD τ).loc main_arg2) i = (r : EReal)) :
    θ_run (defs (F := Ideal)) (onTc (τ := τ) (main (F := Ideal))) ⟨m, fun _ => 0, ρ⟩ fun r => ∀ c : Dev nD,
      r.2.mem ((c.tc : Thread nD τ).loc main_v5)
        = Cert.Spec.spec (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v5 (Pipeline.mem_restRefs_of main_v5 (by decide) (by decide))).trans (result_eq m c (hx c) (hp c) (hw c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Whole

end
-- ==== Proof.RefRun.lean ====
/-
  The reference program's @main as a list of its host operations, and its run.

  @main calls the function `_take` (which calls `_where`); a call means the callee's body on the operands, so
  the straight line of operations is `_take`'s twenty-three (with `_where`'s one select in the place of its call)
  over the call's buffer records, followed by @main's own eight.  Every weakly fair execution terminates with each
  buffer at the operations' fold over the launch contents; the four argument buffers are written by no operation.
-/
import proofs.«112800_g34952443855185_cont_8to1_b_1957_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-one operations in order, the two calls unfolded: the index words' wrap of negative values
    (`p < 0 ? p + 2048 : p`), their range test (`0 ≤ p ∧ p ≤ 2047`, and-reduced over the unit axis), the gather,
    the select on the range test against the not-a-number word; then the weights' broadcasts, the product, the sum
    over the last axis, the bias' broadcasts and the final addition. -/
abbrev ops : List (HloOp τ sig (Elt F)) :=
  [ TRef.nullary main_call0.c (constantI S_ 32 0#32),
    TRef.unary main_call0.c main_call0.v0 (broadcastInDim S2048x16 ![] bcast_S_S2048x16),
    TRef.binary (.of main_arg1) main_call0.v0 main_call0.v1 (cmpi .slt),
    TRef.nullary main_call0.c_0 (constantI S_ 32 2048#32),
    TRef.unary main_call0.c_0 main_call0.v2 (broadcastInDim S2048x16 ![] bcast_S_S2048x16),
    TRef.binary (.of main_arg1) main_call0.v2 main_call0.v3 addi,
    TRef.ternary main_call0.v1 main_call0.v3 (.of main_arg1) main_call0.call0.v0 select,
    TRef.unary main_call0.call0.v0 main_call0.v5 (broadcastInDim S2048x16x1 ![0, 1] bcast_S2048x16_S2048x16x1_0_1),
    TRef.nullary main_call0.c_1 (constantI S1 32 2047#32),
    TRef.nullary main_call0.c_2 (constantI S_ 32 0#32),
    TRef.unary main_call0.c_2 main_call0.v6 (broadcastInDim S2048x16x1 ![] bcast_S_S2048x16x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x16x1 ![0, 1, 2] bcast_S1x1x1_S2048x16x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x16x1_S2048x16_d2 h_S_),
    TRef.binary (.of main_arg0) main_call0.v5 main_call0.v13 (fun x i => Host.gather gather_S1x2048x2048_S2048x16x1_S1x2048x2048x16_01_2_n_n_2_2_120481 x i),
    TRef.unary main_call0.v12 main_call0.v14 (broadcastInDim S1x2048x2048x16 ![2, 3] bcast_S2048x16_S1x2048x2048x16_2_3),
    TRef.nullary main_call0.cst (constant S_ .f32 0x7FC00000#32),
    TRef.unary main_call0.cst main_call0.v15 (broadcastInDim S1x2048x2048x16 ![] bcast_S_S1x2048x2048x16),
    TRef.ternary main_call0.v14 main_call0.v13 main_call0.v15 main_call0.v16 select,
    unary main_arg2 main_v1 (broadcastInDim S1x1x2048x16 ![2, 3] bcast_S2048x16_S1x1x2048x16_2_3 : (⟨S2048x16, .f32⟩ : BufTy).Contents (Elt F) → (⟨S1x1x2048x16, .f32⟩ : BufTy).Contents (Elt F)),
    unary main_v1 main_v2 (broadcastInDim S1x2048x2048x16 ![0, 1, 2, 3] bcast_S1x1x2048x16_S1x2048x2048x16_0_1_2_3 : (⟨S1x1x2048x16, .f32⟩ : BufTy).Contents (Elt F) → (⟨S1x2048x2048x16, .f32⟩ : BufTy).Contents (Elt F)),
    binary main_v0 main_v2 main_v3 (mulf : (⟨S1x2048x2048x16, .f32⟩ : BufTy).Contents (Elt F) → (⟨S1x2048x2048x16, .f32⟩ : BufTy).Contents (Elt F) → (⟨S1x2048x2048x16, .f32⟩ : BufTy).Contents (Elt F)),
    nullary main_cst (constant S_ .f32 0x00000000#32),
    binary main_v3 main_cst main_v4 ((fun x v => Host.reduceAdd x v reducesTo_S1x2048x2048x16_S1x2048x2048_d3 h_S_) : (⟨S1x2048x2048x16, .f32⟩ : BufTy).Contents (Elt F) → (⟨S_, .f32⟩ : BufTy).Contents (Elt F) → (⟨S1x2048x2048, .f32⟩ : BufTy).Contents (Elt F)),
    unary main_arg3 main_v5 (broadcastInDim S1x1x2048 ![2] bcast_S2048_S1x1x2048_2 : (⟨S2048, .f32⟩ : BufTy).Contents (Elt F) → (⟨S1x1x2048, .f32⟩ : BufTy).Contents (Elt F)),
    unary main_v5 main_v6 (broadcastInDim S1x2048x2048 ![0, 1, 2] bcast_S1x1x2048_S1x2048x2048_0_1_2 : (⟨S1x1x2048, .f32⟩ : BufTy).Contents (Elt F) → (⟨S1x2048x2048, .f32⟩ : BufTy).Contents (Elt F)),
    binary main_v4 main_v6 main_v7 (addf : (⟨S1x2048x2048, .f32⟩ : BufTy).Contents (Elt F) → (⟨S1x2048x2048, .f32⟩ : BufTy).Contents (Elt F) → (⟨S1x2048x2048, .f32⟩ : BufTy).Contents (Elt F)) ]

-- thirty-one binds re-associated: the rewrite under the chain recurses once per statement
set_option maxRecDepth 1024 in
/-- @main is that straight line: the two functions' definitions unfolded at their calls and the records at their
    fields, both sides are one chain of operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub ..,
    unary_bufs_sub .., unary_bufs_sub .., binary_bufs_sub ..⟩

/-- No operation writes an argument buffer: after the line each holds what it held. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as ONE term of the four argument arrays.

  The fold of the thirty-one operations at the result buffer is, by computation, the composed term below: the index
  words with the negative ones wrapped (`wrapped`), given a trailing unit axis (`starts`); the test that each lies in
  `[0, 2047]`, and-reduced over that unit axis (`inRange`); the gather along the last axis of `x`, kept where the
  test holds and the not-a-number word elsewhere (`taken`); its product with the weights broadcast over the rows,
  summed over the last axis from zero, plus the bias broadcast over the rows (`outT`).
-/
import proofs.«112800_g34952443855185_cont_8to1_b_1957_2_alg».proof.Proof.RefRun

noncomputable section

namespace Cert.ReferenceIdeal.RefTerm

open Cert.ReferenceIdeal Cert.ReferenceIdeal.Gen Cert.ReferenceIdeal.RefRun Idealize.ShloMosaic Idealize.ShloMosaic.TcCoe Idealize.SL.Sem
  Idealize.ShloMosaic.StableHlo

variable {F : FTy → Type} [FloatOps F]

/-- The index words, a negative one moved up by 2048. -/
def wrapped (p : IVec S2048x16 32) : IVec S2048x16 32 :=
  select (cmpi .slt p (broadcastInDim S2048x16 ![] bcast_S_S2048x16 (constantI S_ 32 0#32)))
    (addi p (broadcastInDim S2048x16 ![] bcast_S_S2048x16 (constantI S_ 32 2048#32))) p

/-- The same words as the gather's start indices `[2048, 16, 1]`. -/
def starts (p : IVec S2048x16 32) : IVec S2048x16x1 32 :=
  broadcastInDim S2048x16x1 ![0, 1] bcast_S2048x16_S2048x16x1_0_1 (wrapped p)

/-- The test `0 ≤ start ∧ start ≤ 2047`, and-reduced over the unit axis. -/
def inRange (p : IVec S2048x16 32) : IVec S2048x16 1 :=
  Host.reduce IntOp.andi
    (andi (cmpi .sge (starts p) (broadcastInDim S2048x16x1 ![] bcast_S_S2048x16x1 (constantI S_ 32 0#32)))
      (cmpi .sle (starts p)
        (broadcastInDim S2048x16x1 ![0, 1, 2] bcast_S1x1x1_S2048x16x1_0_1_2
          (broadcastInDim S1x1x1 ![2] bcast_S1_S1x1x1_2 (constantI S1 32 2047#32)))))
    (constantI S_ 1 1#1) reducesTo_S2048x16x1_S2048x16_d2 h_S_

/-- The gathered entries `[1, 2048, 2048, 16]`: the gather where the start is in range, else the not-a-number word. -/
def taken (x : FVec F S1x2048x2048 .f32) (p : IVec S2048x16 32) : FVec F S1x2048x2048x16 .f32 :=
  select (broadcastInDim S1x2048x2048x16 ![2, 3] bcast_S2048x16_S1x2048x2048x16_2_3 (inRange p))
    (Host.gather gather_S1x2048x2048_S2048x16x1_S1x2048x2048x16_01_2_n_n_2_2_120481 x (starts p))
    (broadcastInDim S1x2048x2048x16 ![] bcast_S_S1x2048x2048x16 (constant S_ .f32 0x7FC00000#32))

/-- The result: the gathered entries times the weights, summed over the last axis from zero, plus the bias. -/
def outT (x : FVec F S1x2048x2048 .f32) (p : IVec S2048x16 32) (w : FVec F S2048x16 .f32) (b : FVec F S2048 .f32) :
    FVec F S1x2048x2048 .f32 :=
  addf
    (Host.reduceAdd
      (mulf (taken x p)
        (broadcastInDim S1x2048x2048x16 ![0, 1, 2, 3] bcast_S1x1x2048x16_S1x2048x2048x16_0_1_2_3
          (broadcastInDim S1x1x2048x16 ![2, 3] bcast_S2048x16_S1x1x2048x16_2_3 w)))
      (constant S_ .f32 0x00000000#32) reducesTo_S1x2048x2048x16_S1x2048x2048_d3 h_S_)
    (broadcastInDim S1x2048x2048 ![0, 1, 2] bcast_S1x1x2048_S1x2048x2048_0_1_2
      (broadcastInDim S1x1x2048 ![2] bcast_S2048_S1x1x2048_2 b))

attribute [local irreducible] Host.reduce Host.gather Host.reduceAdd broadcastInDim in
set_option maxRecDepth 8192 in
/-- The fold at the result buffer is `outT` of the arguments by computation: the fold unrolled, each operation's
    result decides whether the buffer read is the one it writes; the reductions, the gather and the broadcasts are
    kept folded meanwhile (the equation never looks inside them). -/
theorem out_eq (V : Valuation τ sig (Elt F)) :
    after ops V (main_v7 : DevRef τ sig)
      = outT (V (main_arg0 : DevRef τ sig)) (V (main_arg1 : DevRef τ sig)) (V (main_arg2 : DevRef τ sig))
          (V (main_arg3 : DevRef τ sig)) := by
  simp only [after_cons, after_nil]
  rfl

end Cert.ReferenceIdeal.RefTerm

end
-- ==== Proof.RefIndex.lean ====
/-
  The index words of the reference, read at an index, for words in `[0, 2048)`.

  A word `q` with `q.toNat < 2048` reads the same signed and unsigned.  So it is not below zero and the wrap keeps
  it (`wrapped_apply`); the start index at `(o, s, 0)` is the word at `(o, s)` (`starts_apply`); it passes both
  range tests, every entry of the tested array is the bit 1, and the and-reduction from 1 is 1 (`inRange_apply`).
-/
import proofs.«112800_g34952443855185_cont_8to1_b_1957_2_alg».proof.Proof.RefTerm
import Idealize.ShloMosaic.Lib.Affine
import Idealize.ShloMosaic.Lib.IdealHost
import Idealize.ShloMosaic.Lib.Pipeline.Value
import Idealize.ShloMosaic.PureOps.Reduce

noncomputable section

namespace Cert.ReferenceIdeal.RefIndex

open Cert.ReferenceIdeal Cert.ReferenceIdeal.Gen Cert.ReferenceIdeal.RefTerm Idealize.ShloMosaic Idealize.ShloMosaic.ValueIdx

/-- A word below 2048 read signed is its value. -/
theorem toInt_of_lt {q : BitVec 32} (h : q.toNat < 2048) : q.toInt = (q.toNat : Int) :=
  BitVec.toInt_eq_toNat_of_lt (by omega)

/-- An and-reduction of an array of ones, from one, is one. -/
theorem reduce_andi_of_forall_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

variable (p : IVec S2048x16 32)

/-- A word in range is not negative: the wrap keeps it. -/
theorem wrapped_apply (o : Fin 2048) (s : Fin 16) (h : (p (ix2 o s)).toNat < 2048) :
    wrapped p (ix2 o s) = p (ix2 o s) := by
  unfold wrapped
  rw [select_apply]
  refine if_neg ?_
  show ¬ IntOp.cmpi .slt (p (ix2 o s)) (broadcastInDim S2048x16 ![] bcast_S_S2048x16 (constantI S_ 32 0#32) (ix2 o s)) = 1#1
  rw [broadcastInDim_scalar_apply, IntOp.cmpi_slt, toInt_of_lt h]
  show ¬ ((p (ix2 o s)).toNat : Int) < (0#32 : BitVec 32).toInt
  rw [show (0#32 : BitVec 32).toInt = 0 from by decide]
  omega

/-- The start index at `(o, s, 0)` is the wrapped word at `(o, s)`. -/
theorem starts_eq (o : Fin 2048) (s : Fin 16) (u : Fin 1) :
    starts p (ix3 o s u) = wrapped p (ix2 o s) := by
  unfold starts
  exact broadcastInDim_apply _ _ _ _ (ix2 o s) (fun a => match a with | ⟨0, _⟩ => rfl | ⟨1, _⟩ => rfl)

theorem starts_apply (o : Fin 2048) (s : Fin 16) (u : Fin 1) (h : (p (ix2 o s)).toNat < 2048) :
    starts p (ix3 o s u) = p (ix2 o s) := (starts_eq p o s u).trans (wrapped_apply p o s h)

/-- Every word in range: the range test holds everywhere. -/
theorem inRange_apply (hp : ∀ i, (p i).toNat < 2048) (j : S2048x16.Idx) : inRange p j = 1#1 := by
  unfold inRange
  refine reduce_andi_of_forall_one _ _ _ _ j (fun i => ?_) rfl
  obtain ⟨o, s, u, rfl⟩ : ∃ (o : Fin 2048) (s : Fin 16) (u : Fin 1), i = ix3 o s u := ⟨_, _, _, eq_ix3 i⟩
  show IntOp.andi (IntOp.cmpi .sge (starts p (ix3 o s u)) (broadcastInDim S2048x16x1 ![] bcast_S_S2048x16x1 (constantI S_ 32 0#32) (ix3 o s u)))
      (IntOp.cmpi .sle (starts p (ix3 o s u))
        (broadcastInDim S2048x16x1 ![0, 1, 2] bcast_S1x1x1_S2048x16x1_0_1_2
          (broadcastInDim S1x1x1 ![2] bcast_S1_S1x1x1_2 (constantI S1 32 2047#32)) (ix3 o s u))) = 1#1
  have hq := hp (ix2 o s)
  rw [starts_apply p o s u hq, broadcastInDim_scalar_apply,
    broadcastInDim_apply _ _ _ (ix3 o s u) (ix3 (0 : Fin 1) (0 : Fin 1) (0 : Fin 1))
      (fun a => match a with | ⟨0, _⟩ => rfl | ⟨1, _⟩ => rfl | ⟨2, _⟩ => rfl),
    broadcastInDim_apply _ _ _ (ix3 (0 : Fin 1) (0 : Fin 1) (0 : Fin 1)) (ix1 (0 : Fin 1))
      (fun a => match a with | ⟨0, _⟩ => rfl)]
  refine IntOp.andi_eq_one.2 ⟨IntOp.cmpi_sge.2 ?_, IntOp.cmpi_sle.2 ?_⟩
  · rw [toInt_of_lt hq]
    show (0#32 : BitVec 32).toInt ≤ _
    rw [show (0#32 : BitVec 32).toInt = 0 from by decide]
    omega
  · rw [toInt_of_lt hq]
    show _ ≤ (2047#32 : BitVec 32).toInt
    rw [show (2047#32 : BitVec 32).toInt = 2047 from by decide]
    omega

end Cert.ReferenceIdeal.RefIndex

end
-- ==== Proof.LibGatherLastAxis.lean ====
/-
  `stablehlo.gather` along the LAST axis of a rank-3 operand, read at an index.

  What `jnp.take(x, idx, axis=-1)` of an array `x : [A, T, N]` at an integer array `idx : [R, C]` lowers to: a gather
  with offset_dims `[0, 1]`, collapsed_slice_dims `[2]`, start_index_map `[2]`, index_vector_dim 2 and slice sizes
  `[A, T, 1]` over the indices as `[R, C, 1]`, its result `[A, T, R, C]`.  Result element `(a, t, r, c)` is `x` at
  `(a, t, k)`, `k` the start index `idx[r, c, 0]` read as a signed integer and clamped into `[0, N − 1]`, as
  StableHLO's gather clamps every start index.  Stated for every extent; the conditions `wf` on the dimension numbers
  are decided on a program's literal shapes.
-/
import Idealize.ShloMosaic.PureOps.ShapeOps
import Idealize.ShloMosaic.Lib.ValueIdx

namespace Cert.LibGatherLastAxis

open Idealize.ShloMosaic Idealize.ShloMosaic.ValueIdx

variable {α : Type}

/-- Those dimension numbers for an operand `[A, T, N]`, start indices `[R, C, 1]` and result `[A, T, R, C]`. -/
abbrev takeLastDims (A T N R C : Nat)
    (wf : GatherDims.WF ⟨3, ![A, T, N]⟩ ⟨3, ![R, C, 1]⟩ ⟨4, ![A, T, R, C]⟩ [0, 1] [2] [] [2] [] 2 ![A, T, 1]) :
    GatherDims ⟨3, ![A, T, N]⟩ ⟨3, ![R, C, 1]⟩ ⟨4, ![A, T, R, C]⟩ where
  offsetDims := [0, 1]
  collapsedSliceDims := [2]
  operandBatchingDims := []
  startIndicesBatchingDims := []
  startIndexMap := [2]
  indexVectorDim := 2
  sliceSizes := ![A, T, 1]
  wf := wf

/-- THE GATHER READ AT `(a, t, r, c)`: the operand at `(a, t, k)`, `k` the start index `idx[r, c, 0]` read signed and
    clamped into `[0, N − 1]`. -/
theorem gather_takeLast_apply {A T N R C w : Nat} (hN : 0 < N)
    (wf : GatherDims.WF ⟨3, ![A, T, N]⟩ ⟨3, ![R, C, 1]⟩ ⟨4, ![A, T, R, C]⟩ [0, 1] [2] [] [2] [] 2 ![A, T, 1])
    (x : (⟨3, ![A, T, N]⟩ : Shape).Idx → α) (idx : IVec ⟨3, ![R, C, 1]⟩ w)
    (a : Fin A) (t : Fin T) (r : Fin R) (c : Fin C) :
    Host.gather (takeLastDims A T N R C wf) x idx (ix4 a t r c)
      = x (ix3 a t ⟨min (idx (ix3 r c (0 : Fin 1))).toInt.toNat (N - 1), by omega⟩) := by
  unfold Host.gather
  congr 1
  funext b
  refine Fin.ext ?_
  show (takeLastDims A T N R C wf).start (ix4 a t r c) idx b + (takeLastDims A T N R C wf).batchCoord (ix4 a t r c) b
      + (takeLastDims A T N R C wf).offCoord (ix4 a t r c) b = _
  rw [GatherDims.batchCoord_eq_zero _ _ _ List.not_mem_nil]
  match b with
  | ⟨0, hb⟩ =>
    have hc : (⟨0, hb⟩ : Fin (⟨3, ![A, T, N]⟩ : Shape).rank) ∉ ([2] : List (Fin (⟨3, ![A, T, N]⟩ : Shape).rank)) := fun h =>
      absurd (show (0 : Nat) = 2 from congrArg Fin.val (List.mem_singleton.mp h)) (by decide)
    unfold GatherDims.start GatherDims.offCoord
    rw [dif_neg (show (⟨0, hb⟩ : Fin (⟨3, ![A, T, N]⟩ : Shape).rank) ∉ (takeLastDims A T N R C wf).startIndexMap from hc),
      dif_pos (show (⟨0, hb⟩ : Fin (⟨3, ![A, T, N]⟩ : Shape).rank) ∈ (takeLastDims A T N R C wf).sKept from
        (GatherDims.mem_sKept _ _).mpr ⟨hc, List.not_mem_nil⟩)]
    simp only [Nat.zero_add]
    rfl
  | ⟨1, hb⟩ =>
    have hc : (⟨1, hb⟩ : Fin (⟨3, ![A, T, N]⟩ : Shape).rank) ∉ ([2] : List (Fin (⟨3, ![A, T, N]⟩ : Shape).rank)) := fun h =>
      absurd (show (1 : Nat) = 2 from congrArg Fin.val (List.mem_singleton.mp h)) (by decide)
    unfold GatherDims.start GatherDims.offCoord
    rw [dif_neg (show (⟨1, hb⟩ : Fin (⟨3, ![A, T, N]⟩ : Shape).rank) ∉ (takeLastDims A T N R C wf).startIndexMap from hc),
      dif_pos (show (⟨1, hb⟩ : Fin (⟨3, ![A, T, N]⟩ : Shape).rank) ∈ (takeLastDims A T N R C wf).sKept from
        (GatherDims.mem_sKept _ _).mpr ⟨hc, List.not_mem_nil⟩)]
    simp only [Nat.zero_add]
    rfl
  | ⟨2, hb⟩ =>
    have hs : (⟨2, hb⟩ : Fin (⟨3, ![A, T, N]⟩ : Shape).rank) ∈ (takeLastDims A T N R C wf).startIndexMap :=
      List.mem_singleton.mpr rfl
    have hk : (⟨2, hb⟩ : Fin (⟨3, ![A, T, N]⟩ : Shape).rank) ∉ (takeLastDims A T N R C wf).sKept := fun h =>
      ((GatherDims.mem_sKept _ _).mp h).1 (List.mem_singleton.mpr rfl)
    unfold GatherDims.start GatherDims.offCoord
    rw [dif_pos hs, dif_neg hk]
    simp only [Nat.add_zero]
    have hsi : (takeLastDims A T N R C wf).siIdx (ix4 a t r c)
        ⟨List.idxOf (⟨2, hb⟩ : Fin (⟨3, ![A, T, N]⟩ : Shape).rank) (takeLastDims A T N R C wf).startIndexMap,
          List.idxOf_lt_length_iff.2 hs⟩ = ix3 r c (0 : Fin 1) := by
      funext e; refine Fin.ext ?_
      match e with
      | ⟨0, _⟩ => rfl
      | ⟨1, _⟩ => rfl
      | ⟨2, _⟩ => rfl
    rw [hsi]
    rfl

end Cert.LibGatherLastAxis
-- ==== Proof.RefValue.lean ====
/-
  The reference's result read at an index, for index words in `[0, 2048)`, and the run assembled.

  At `(0, t, o, s)` the range test is the bit 1, so the select keeps the gathered entry; the gather reads `x` at
  `(0, t, k)` with `k` the start index read signed and clamped into `[0, 2047]`, which for a word in range is the
  word's value, the column the specification selects (`taken_apply`).  The weights and the bias are broadcasts of
  `w` and `b` over the rows; the product and the final sum are pointwise; the reduction over the last axis from
  the zero word is the sum over its sixteen coordinates (`outT_apply`).  So the result buffer holds the
  specification (`out_apply`), and every execution of @main ends with it there and the arguments unchanged (`run`).
-/
import proofs.«112800_g34952443855185_cont_8to1_b_1957_2_alg».proof.Proof.RefIndex
import proofs.«112800_g34952443855185_cont_8to1_b_1957_2_alg».proof.Proof.LibGatherLastAxis
import proofs.«112800_g34952443855185_cont_8to1_b_1957_2_alg».proof.Proof.Spec
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.RefRun Cert.ReferenceIdeal.RefTerm Cert.ReferenceIdeal.RefIndex
  Cert.LibGatherLastAxis Idealize.ShloMosaic Idealize.ShloMosaic.ValueIdx Idealize.ShloMosaic.TcCoe Idealize.SL.Sem
  Idealize.ShloMosaic.StableHlo

/-- The gathered entry at `(0, t, o, s)`: `x` at row `t`, the column the index word at `(o, s)` names. -/
theorem taken_apply (x : FVec Ideal S1x2048x2048 .f32) (p : IVec S2048x16 32) (hp : ∀ i, (p i).toNat < 2048)
    (t o : Fin 2048) (s : Fin 16) :
    taken x p (ix4 (0 : Fin 1) t o s) = x (ix3 (0 : Fin 1) t (Cert.Spec.col (p (ix2 o s)))) := by
  have hq := hp (ix2 o s)
  unfold taken
  rw [select_apply,
    broadcastInDim_apply _ _ (inRange p) (ix4 (0 : Fin 1) t o s) (ix2 o s)
      (fun a => match a with | ⟨0, _⟩ => rfl | ⟨1, _⟩ => rfl),
    inRange_apply p hp, select_one]
  refine (gather_takeLast_apply (by decide) gather_S1x2048x2048_S2048x16x1_S1x2048x2048x16_01_2_n_n_2_2_120481_wf
    x (starts p) (0 : Fin 1) t o s).trans ?_
  refine congrArg x (congrArg (ix3 (0 : Fin 1) t) (Fin.ext ?_))
  show min (starts p (ix3 o s (0 : Fin 1))).toInt.toNat (2048 - 1) = (Cert.Spec.col (p (ix2 o s))).val
  rw [starts_apply p o s 0 hq, toInt_of_lt hq, Cert.Spec.col_val_of_lt hq, Int.toNat_natCast]
  omega

/-- The source index over result index `(0, t, o)` with `k` on the reduced last axis is `(0, t, o, k)`. -/
theorem lift_eq (h : S1x2048x2048x16.Reduces [3] S1x2048x2048) (t o : Fin 2048) (k : Fin 16) :
    h.lift (ix3 (0 : Fin 1) t o) k = ix4 (0 : Fin 1) t o k :=
  funext fun c => Fin.ext (match c with | ⟨0, _⟩ => rfl | ⟨1, _⟩ => rfl | ⟨2, _⟩ => rfl | ⟨3, _⟩ => rfl)

/-- The composed term at `(0, t, o)` is the specification there. -/
theorem outT_apply (x : FVec Ideal S1x2048x2048 .f32) (p : IVec S2048x16 32) (w : FVec Ideal S2048x16 .f32)
    (b : FVec Ideal S2048 .f32) (hp : ∀ i, (p i).toNat < 2048) (t o : Fin 2048) :
    outT x p w b (ix3 (0 : Fin 1) t o) = Cert.Spec.specAt x p w b t o := by
  unfold outT Cert.Spec.specAt
  rw [addf_apply]
  refine congrArg₂ (· + ·) ?_ ?_
  · rw [hostReduceAdd_apply]
    refine (Ideal.hostReduceAdd_single reducesTo_S1x2048x2048x16_S1x2048x2048_d3
      (by decide : S1x2048x2048x16.Reduces [3] S1x2048x2048) _ _ _).trans ?_
    rw [constant_apply, Ideal.ofBits_zero_f32, zero_add]
    refine Finset.sum_congr rfl fun k _ => ?_
    rw [lift_eq _ t o k, mulf_apply, taken_apply x p hp t o k]
    refine congrArg (x (ix3 (0 : Fin 1) t (Cert.Spec.col (p (ix2 o k)))) * ·) ?_
    refine (broadcastInDim_apply _ _ _ (ix4 (0 : Fin 1) t o k) (ix4 (0 : Fin 1) (0 : Fin 1) o k)
      (fun a => match a with | ⟨0, _⟩ => rfl | ⟨1, _⟩ => rfl | ⟨2, _⟩ => rfl | ⟨3, _⟩ => rfl)).trans ?_
    exact broadcastInDim_apply _ _ _ (ix4 (0 : Fin 1) (0 : Fin 1) o k) (ix2 o k)
      (fun a => match a with | ⟨0, _⟩ => rfl | ⟨1, _⟩ => rfl)
  · refine (broadcastInDim_apply _ _ _ (ix3 (0 : Fin 1) t o) (ix3 (0 : Fin 1) (0 : Fin 1) o)
      (fun a => match a with | ⟨0, _⟩ => rfl | ⟨1, _⟩ => rfl | ⟨2, _⟩ => rfl)).trans ?_
    exact broadcastInDim_apply _ _ _ (ix3 (0 : Fin 1) (0 : Fin 1) o) (ix1 o)
      (fun a => match a with | ⟨0, _⟩ => rfl)

/-- THE RESULT AT AN INDEX: after the operations the result buffer holds, at `(0, t, o)`, the specification of the
    four argument arrays, when every index word is below 2048. -/
theorem out_apply (V : Valuation τ sig (Elt Ideal)) (hp : ∀ i, (V (main_arg1 : DevRef τ sig) i).toNat < 2048) (t o : Fin 2048) :
    after (ops (F := Ideal)) V (main_v7 : DevRef τ sig) (ix3 (0 : Fin 1) t o)
      = Cert.Spec.specAt (V (main_arg0 : DevRef τ sig)) (V (main_arg1 : DevRef τ sig)) (V (main_arg2 : DevRef τ sig))
          (V (main_arg3 : DevRef τ sig)) t o := by
  rw [out_eq]
  exact outT_apply _ _ _ _ hp t o

/-- The whole result buffer is the specification array. -/
theorem out_spec (V : Valuation τ sig (Elt Ideal)) (hp : ∀ i, (V (main_arg1 : DevRef τ sig) i).toNat < 2048) :
    after (ops (F := Ideal)) V (main_v7 : DevRef τ sig)
      = Cert.Spec.spec (V (main_arg0 : DevRef τ sig)) (V (main_arg1 : DevRef τ sig)) (V (main_arg2 : DevRef τ sig))
          (V (main_arg3 : DevRef τ sig)) := by
  funext i
  obtain ⟨u, t, o, rfl⟩ : ∃ (u : Fin 1) (t o : Fin 2048), i = ix3 u t o := ⟨_, _, _, eq_ix3 i⟩
  obtain rfl : u = 0 := Subsingleton.elim _ _
  rw [Cert.Spec.spec_ix3]
  exact out_apply V hp t o

/-- On every device, at the ideal values, from any memory with zero counters whose index words are all below 2048:
    every weakly fair execution of @main terminates with the result buffer at the specification of the four argument
    arrays, and the arguments unchanged. -/
theorem run (m : (ℓ : Loc nD τ sig) → Buf (Elt Ideal) ℓ) (ρ : Dev nD → PrngReg)
    (hp : ∀ (c : Dev nD) i, (m ((c.tc : Thread nD τ).loc main_arg1) i).toNat < 2048) :
    θ_run (defs (F := Ideal)) (onTc (τ := τ) (main (F := Ideal))) ⟨m, fun _ => 0, ρ⟩ fun r => ∀ c : Dev nD,
      r.2.mem ((c.tc : Thread nD τ).loc main_v7)
          = Cert.Spec.spec (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_spec (launchContents m c) (hp c)),
      (h c main_arg0).trans (arg0_eq _),
      (h c main_arg1).trans (arg1_eq _),
      (h c main_arg2).trans (arg2_eq _),
      (h c main_arg3).trans (arg3_eq _)⟩)
    (run_main m ρ)

end Cert.ReferenceIdeal.RefValue

end
-- ==== Proof.PreDecode.lean ====
/-
  The claim's precondition, decoded. The predicate tests every entry of the three float arrays by
  |a| < +inf (the absolute value compared, ordered, against the pattern 0x7F800000 of +inf) and every index word by
  0 <= a and a < 2048 read signed; each test array is reduced by "and" over all its axes from the bit 1, and the
  four resulting bits are joined by "and". When the joined bit is 1, every float entry is a real number (it is
  neither infinity of the extended reals) and every index word, read as a natural number, is below 2048.
-/
import proofs.«112800_g34952443855185_cont_8to1_b_1957_2_alg».proof.Pre_finite_inputs
import Idealize.ShloMosaic.Lib.ReduceAll
import Idealize.ShloMosaic.Lib.ValueIdx
import Idealize.ShloMosaic.PureOps.Ideal

namespace Cert.PreDecode

open Idealize.ShloMosaic Cert.Pre_finite_inputs

/-- The rank-0 shape has one index. -/
instance : Subsingleton S_.Idx := ⟨fun a b => funext fun d => d.elim0⟩

/-- An extended real whose absolute value `max a (-a)` is below `⊤` is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The pattern 0x7F800000 denotes `⊤`. -/
theorem ofBits_inf : Ideal.ofBits .f32 0x7F800000#32 = (⊤ : EReal) := by simp [Ideal.ofBits, Ideal.ieee]

/-- One entry: the word of the ordered comparison `|a| < +inf` being 1 makes `a` a real number. -/
theorem real_of_word (a : Ideal .f32)
    (h : FloatOps.cmpf (F := Ideal) .olt (FloatOps.hostAbsf a) (FloatOps.ofBits .f32 0x7F800000#32) = 1#1) :
    ∃ r : ℝ, a = (r : EReal) := by
  change Ideal.cmp .olt (max a (-a)) (Ideal.ofBits .f32 0x7F800000#32) = 1#1 at h
  rw [ofBits_inf] at h
  refine real_of_abs_lt_top a ?_
  by_contra hn
  simp [Ideal.cmp, hn] at h

/-- A float array all of whose entries pass `|a| < +inf` (the all-axes reduction by "and" is 1) has only real entries. -/
theorem decode_f {S : Shape} {axes : List (Fin S.rank)} (hb : S_.BroadcastsInDim S (![] : Fin 0 → Fin S.rank))
    (hr : S.ReducesTo axes S_) (hu : 0 < S_.numel) (x : FVec Ideal S .f32)
    (h : Host.reduce IntOp.andi
          (cmpf .olt (Host.absf x) (broadcastInDim S ![] hb (constant (F := Ideal) S_ .f32 0x7F800000#32)))
          (constantI S_ 1 1#1) hr hu ValueIdx.ix0 = 1#1) (i : S.Idx) : ∃ r : ℝ, x i = (r : EReal) :=
  real_of_word (x i) (Host.reduce_andi_all _ _ hr hu ValueIdx.ix0 h i)

/-- One index word: `0 ≤ a` and `a < 2048` read signed give `a < 2048` read as a natural number. -/
theorem toNat_lt_of_words (a : BitVec 32) (h0 : IntOp.cmpi .sge a 0#32 = 1#1) (h1 : IntOp.cmpi .slt a 2048#32 = 1#1) :
    a.toNat < 2048 := by
  rw [IntOp.cmpi_sge] at h0
  rw [IntOp.cmpi_slt] at h1
  have e0 : (0#32 : BitVec 32).toInt = 0 := by decide
  have e1 : (2048#32 : BitVec 32).toInt = 2048 := by decide
  rw [e0] at h0
  rw [e1] at h1
  have hc := BitVec.toInt_eq_toNat_cond a
  split at hc <;> omega

/-- The index array: all words pass both signed tests, so each is below 2048 as a natural number. -/
theorem decode_p (hb : S_.BroadcastsInDim S2048x16 (![] : Fin 0 → Fin S2048x16.rank))
    (hr : S2048x16.ReducesTo [0, 1] S_) (hu : 0 < S_.numel) (p : IVec S2048x16 32)
    (h : Host.reduce IntOp.andi
          (andi (cmpi .sge p (broadcastInDim S2048x16 ![] hb (constantI S_ 32 0#32)))
                (cmpi .slt p (broadcastInDim S2048x16 ![] hb (constantI S_ 32 2048#32))))
          (constantI S_ 1 1#1) hr hu ValueIdx.ix0 = 1#1) (i : S2048x16.Idx) : (p i).toNat < 2048 := by
  have hi : IntOp.andi (IntOp.cmpi .sge (p i) 0#32) (IntOp.cmpi .slt (p i) 2048#32) = 1#1 :=
    Host.reduce_andi_all _ _ hr hu ValueIdx.ix0 h i
  obtain ⟨h0, h1⟩ := IntOp.andi_eq_one.1 hi
  exact toNat_lt_of_words (p i) h0 h1

/-- The precondition of the claim, as facts about the four inputs. -/
theorem decode [Cert.Pre_finite_inputs.Facts]
    (x : FVec Ideal Cert.Pre_finite_inputs.S1x2048x2048 .f32) (p : IVec Cert.Pre_finite_inputs.S2048x16 32)
    (w : FVec Ideal Cert.Pre_finite_inputs.S2048x16 .f32) (b : FVec Ideal Cert.Pre_finite_inputs.S2048 .f32)
    (h : Cert.Pre_finite_inputs.fn (F := Ideal) x p w b = fun _ => 1#1) :
    (∀ i, ∃ r : ℝ, x i = (r : EReal)) ∧ (∀ i, (p i).toNat < 2048) ∧ (∀ i, ∃ r : ℝ, w i = (r : EReal)) ∧ (∀ i, ∃ r : ℝ, b i = (r : EReal)) := by
  have h0 := congrFun h ValueIdx.ix0
  dsimp only [fn, fn_part1] at h0
  change IntOp.andi (IntOp.andi (IntOp.andi _ _) _) _ = 1#1 at h0
  obtain ⟨h123, hp⟩ := IntOp.andi_eq_one.1 h0
  obtain ⟨h12, hb⟩ := IntOp.andi_eq_one.1 h123
  obtain ⟨hx, hw⟩ := IntOp.andi_eq_one.1 h12
  exact ⟨decode_f _ _ _ x hx, decode_p _ _ _ p hp, decode_f _ _ _ w hw, decode_f _ _ _ b hb⟩

end Cert.PreDecode
-- ==== Proof.lean ====
/-
  A scattered sixteen-term linear layer, computed two ways.

  For an input `x : [1, 2048, 2048]`, index words `perm : [2048, 16]`, weights `w : [2048, 16]` and a bias
  `b : [2048]`, both programs compute

      out[0, t, o] = (Σ_{s < 16} x[0, t, perm[o, s]] · w[o, s]) + b[o]            (Proof/Spec.lean).

  The reference gathers the sixteen selected entries of each row, multiplies by the weights, sums and adds the bias
  (Proof/RefRun.lean … RefValue.lean: its operations as a list, its run, and the result read at an index). The
  kernel instead builds, for each block of 512 output features, the dense `[2048, 512]` matrix that has `w[o, s]`
  at row `perm[o, s]` of column `o` (equal rows add) and zero elsewhere, multiplies the whole input by it and adds
  the bias (Proof/OneHot.lean, Payload.lean: the stored block at an entry; Blocks.lean: the four blocks tile the
  output array; KernelRun.lean: the host's re-layouts around the region and the program's run). The two agree by
  the law  Σ_k x_k · (Σ_s [k = c_s] · w_s) = Σ_s x_{c_s} · w_s  (Proof/Algebra.lean, Bridge.lean), which needs the
  entries and weights to be real numbers — the precondition's finiteness — and, for the dense matrix to hold every
  weight, each index word to name a row, `0 ≤ perm < 2048` — the precondition's range conjunct, under which the
  reference's wrap of negative indices and its out-of-range fill never act (Proof/PreDecode.lean reads both off the
  precondition).

  The three frame claims are the generated frames of the two kernel programs and the reference's run with its
  result dropped; the idealization rewrote nothing, so `preserves` is `True`.
-/
import proofs.«112800_g34952443855185_cont_8to1_b_1957_2_alg».proof.Defs
import proofs.«112800_g34952443855185_cont_8to1_b_1957_2_alg».proof.Proof.Gen.Kernel
import proofs.«112800_g34952443855185_cont_8to1_b_1957_2_alg».proof.Proof.Gen.Kernel.Frame
import proofs.«112800_g34952443855185_cont_8to1_b_1957_2_alg».proof.Proof.Gen.KernelIdeal
import proofs.«112800_g34952443855185_cont_8to1_b_1957_2_alg».proof.Proof.Gen.KernelIdeal.Frame
import proofs.«112800_g34952443855185_cont_8to1_b_1957_2_alg».proof.Proof.Gen.ReferenceIdeal
import proofs.«112800_g34952443855185_cont_8to1_b_1957_2_alg».proof.Proof.Gen.Pre_finite_inputs
import proofs.«112800_g34952443855185_cont_8to1_b_1957_2_alg».proof.Proof.KernelRun
import proofs.«112800_g34952443855185_cont_8to1_b_1957_2_alg».proof.Proof.RefValue
import proofs.«112800_g34952443855185_cont_8to1_b_1957_2_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, the result dropped. -/
theorem frame_ri : Cert.frame_ReferenceIdeal := fun m ρ hpre =>
  (θ_run Cert.ReferenceIdeal.defs _ _).mono (fun _ h c => (h c).2)
    (Cert.ReferenceIdeal.RefValue.run m ρ fun c i => (Cert.PreDecode.decode _ _ _ _ (hpre c)).2.1 i)

/-- Both programs end with the specification of the (agreeing) argument arrays in their result buffers. -/
theorem algebraic : Cert.algebraic_KernelIdeal_ReferenceIdeal := by
  intro m ρ m' ρ' hpre hagree
  have hdec := fun c => Cert.PreDecode.decode _ _ _ _ (hpre c)
  refine ⟨fun c => Cert.Spec.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ (fun c => (hdec c).1) (fun c => (hdec c).2.1) (fun c => (hdec c).2.2.1), ?_⟩
  refine (θ_run Cert.ReferenceIdeal.defs _ _).mono (fun _ h c => ⟨(h c).1.trans ?_, (h c).2⟩)
    (Cert.ReferenceIdeal.RefValue.run m' ρ' fun c i => by rw [(hagree c).2.1]; exact (hdec c).2.1 i)
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
